-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S8192x4096 .f32) (main_arg1 : FVec F S4096x4096 .f32) (main_arg2 : FVec F S4096x4096 .f32) (main_arg3 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S256x4096 : Shape := ⟨2, ![256, 4096]⟩
abbrev S1x4096 : Shape := ⟨2, ![1, 4096]⟩
abbrev S512x4096 : Shape := ⟨2, ![512, 4096]⟩
abbrev S4096x2048 : Shape := ⟨2, ![4096, 2048]⟩
abbrev S1x2048 : Shape := ⟨2, ![1, 2048]⟩
abbrev S512x2048 : Shape := ⟨2, ![512, 2048]⟩

abbrev nBuf : Space → Nat
  | .hbm => 7
  | .vmem => 14
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096x4096, .bf16⟩
  | .hbm, ⟨5, _⟩ => ⟨S1x4096, .f32⟩
  | .hbm, ⟨6, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .bf16⟩
  | .local _ .vmem, ⟨5, _⟩ => ⟨S256x4096, .bf16⟩
  | .local _ .vmem, ⟨6, _⟩ => ⟨S512x4096, .f32⟩
  | .local _ .vmem, ⟨7, _⟩ => ⟨S512x4096, .f32⟩
  | .local _ .vmem, ⟨8, _⟩ => ⟨S4096x2048, .bf16⟩
  | .local _ .vmem, ⟨9, _⟩ => ⟨S4096x2048, .bf16⟩
  | .local _ .vmem, ⟨10, _⟩ => ⟨S1x2048, .f32⟩
  | .local _ .vmem, ⟨11, _⟩ => ⟨S1x2048, .f32⟩
  | .local _ .vmem, ⟨12, _⟩ => ⟨S512x2048, .f32⟩
  | .local _ .vmem, ⟨13, _⟩ => ⟨S512x2048, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S4096x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S256x4096_S256x4096_0_0 : ∀ a, (![0, 0] : Fin 2 → Nat) a + S256x4096.size a ≤ S256x4096.size a
  h_S256x4096 : 0 < S256x4096.numel
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  inb_S4096x2048_S4096x2048_0_0 : ∀ a, (![0, 0] : Fin 2 → Nat) a + S4096x2048.size a ≤ S4096x2048.size a
  h_S4096x2048 : 0 < S4096x2048.numel
  shapeCasts_S4096x2048_S4096x2048 : S4096x2048.ShapeCasts S4096x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  dot_S512x4096_S4096x2048_S512x2048_1_0_0_1_n_n_wf : DotDims.WF S512x4096 S4096x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .f32 = 32 ∨ (Rect.block (s := S4096x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S4096x4096.size a
  hwx0_2 : ∀ i : grid0.Coords, EltTy.bits .bf16 = 32 ∨ (Rect.block (s := S4096x4096) S256x4096.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S8192x4096.size a
  hwx1_0 : ∀ i : grid1.Coords, EltTy.bits .f32 = 32 ∨ (Rect.block (s := S8192x4096) S512x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x2048.size a ≤ S4096x4096.size a
  hwx1_1 : ∀ i : grid1.Coords, EltTy.bits .bf16 = 32 ∨ (Rect.block (s := S4096x4096) S4096x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x4096.size a
  hwx1_2 : ∀ i : grid1.Coords, EltTy.bits .f32 = 32 ∨ (Rect.block (s := S1x4096) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x2048.size a ≤ S8192x4096.size a
  hwx1_3 : ∀ i : grid1.Coords, EltTy.bits .f32 = 32 ∨ (Rect.block (s := S8192x4096) S512x2048.size (cc1_transform_3 i) (hinb1_3 i)).WholeWords (EltTy.packing .f32)

variable [Facts₀]

def dot_S512x4096_S4096x2048_S512x2048_1_0_0_1_n_n : DotDims S512x4096 S4096x2048 S512x2048 where
  lhsContracting := [1]
  rhsContracting := [0]
  lhsNonContracting := [0]
  rhsNonContracting := [1]
  lhsBatch := []
  rhsBatch := []
  wf := dot_S512x4096_S4096x2048_S512x2048_1_0_0_1_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S4096x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S512x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096x4096, .f32⟩
  | .hbm, ⟨5, _⟩ => ⟨S8192x4096, .f32⟩
  | .hbm, ⟨6, _⟩ => ⟨S1x4096, .f32⟩
  | .hbm, ⟨7, _⟩ => ⟨S8192x4096, .f32⟩
  | .hbm, ⟨8, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Spec.lean ====
/-
  The masked dense layer as one function of its four arrays.

  For an input `x` (8192 × 4096), a weight `w` and a mask `mk` (4096 × 4096 each) and a bias `b` (4096), the layer's
  output at row `r`, column `j` is

      Σ_k x[r, k] · (w[k, j] · mk[k, j])  +  b[j]

  read in the extended reals.  It is built here in the three pieces both programs compute it in: the masked weight
  (an entrywise product), the bias as a one-row matrix, and the affine map "matrix product plus a row repeated over
  the rows".
-/
import Idealize.ShloMosaic.PureOps.Ideal
import Idealize.ShloMosaic.Lib.ValueIdx

noncomputable section

namespace Cert.DenseSpec

open Idealize.ShloMosaic Idealize.ShloMosaic.ValueIdx

abbrev SX : Shape := ⟨2, ![8192, 4096]⟩
abbrev SW : Shape := ⟨2, ![4096, 4096]⟩
abbrev SRow : Shape := ⟨2, ![1, 4096]⟩
abbrev SB : Shape := ⟨1, ![4096]⟩

/-- The masked weight: the entrywise product of the weight and the mask. -/
def masked (w mk : SW.Idx → EReal) : SW.Idx → EReal := fun i => w i * mk i

/-- The bias laid out as a matrix of one row. -/
def biasRow (b : SB.Idx → EReal) : SRow.Idx → EReal := fun i => b (ix1 (⟨(i 1).val, (i 1).isLt⟩ : Fin 4096))

/-- The product of `X` with `Wm`, plus the one row `B` added to every row. -/
def affine (X : SX.Idx → EReal) (Wm : SW.Idx → EReal) (B : SRow.Idx → EReal) : SX.Idx → EReal := fun i =>
  (∑ k : Fin 4096, X (ix2 (⟨(i 0).val, (i 0).isLt⟩ : Fin 8192) k) * Wm (ix2 k (⟨(i 1).val, (i 1).isLt⟩ : Fin 4096)))
    + B (ix2 (0 : Fin 1) (⟨(i 1).val, (i 1).isLt⟩ : Fin 4096))

/-- The affine map at an entry given by its two coordinates. -/
theorem affine_ix2 (X : SX.Idx → EReal) (Wm : SW.Idx → EReal) (B : SRow.Idx → EReal) (r : Fin 8192) (j : Fin 4096) :
    affine X Wm B (ix2 r j) = (∑ k : Fin 4096, X (ix2 r k) * Wm (ix2 k j)) + B (ix2 (0 : Fin 1) j) := rfl

/-- The layer: the input times the masked weight, plus the bias on every row. -/
def layer (x : SX.Idx → EReal) (w mk : SW.Idx → EReal) (b : SB.Idx → EReal) : SX.Idx → EReal :=
  affine x (masked w mk) (biasRow b)

end Cert.DenseSpec

end
-- ==== Proof.MaskedWeight.lean ====
/-
  The first kernel leaves the masked weight.

  The first kernel walks the 4096 × 4096 weight and mask in 16 blocks of 256 rows; at each block it stores the
  entrywise product of the two blocks it loaded (the rounding to the narrower float format is the identity on extended
  reals).  Block `t` of each input and of the output is rows `256 t … 256 t + 255`, so what point `t` writes back
  is block `t` of the entrywise product of the two whole arrays; the 16 blocks cover every row, so after the last
  point the output array is that product, whatever the arrays held when the kernel was entered.
-/
import proofs.«135961_g67843303407970_cont_9to1c4b_90_21_alg».proof.Proof.Gen.KernelIdeal.Frame
import proofs.«135961_g67843303407970_cont_9to1c4b_90_21_alg».proof.Proof.Spec
import Idealize.ShloMosaic.Lib.Pipeline.Value
import Idealize.ShloMosaic.Lib.ValueIdx

noncomputable section

namespace Cert.KernelIdeal.Dense

open Cert.KernelIdeal Cert.KernelIdeal.Gen Idealize.ShloMosaic Idealize.ShloMosaic.TcCoe Idealize.SL.Sem
open Idealize.ShloMosaic.Pipeline (Dat)
open Cert.DenseSpec (masked)

variable (V : (c : Dev nD) → (b : Ref sig .tc) → Buf (Elt Ideal) ((c : Thread nD τ).loc b))

theorem zero_offsets : (![0, 0] : Fin 2 → Nat) = fun _ => 0 := funext fun a => by fin_cases a <;> rfl

/-- At every point the two input blocks sit where the output block does: block row `t`, block column 0. -/
theorem prep_index : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2) :=
  (by decide +kernel : ∀ t : Fin grid0.N, _)

/-- Every block row is some point's. -/
theorem prep_onto : ∀ q0 : Fin 16, ∃ t : Fin cfg0.N, win0_2.index t = ![q0.val, 0] :=
  (by decide +kernel : ∀ q0 : Fin 16, ∃ t : Fin grid0.N, win0_2.index t = ![q0.val, 0])

/-- One entry of the body's block is the product's entry, when the two loaded entries are the two arrays' there. -/
theorem prep_point (A B : S4096x4096.Idx → EReal) (x0 x1 : Vec Ideal S256x4096 .f32) (j : S256x4096.Idx) (i : S4096x4096.Idx)
    (h0 : x0 j = A i) (h1 : x1 j = B i) : k0_pay1 (F := Ideal) x0 x1 j = masked A B i := by
  show x0 j * x1 j = A i * B i
  rw [h0, h1]

/-- What point `t` writes back is block `t` of the entrywise product of the weight and the mask as the kernel finds them. -/
theorem prep_flushed (c : Dev nD) (t : Fin cfg0.N) :
    (dat0 V c).flushed 2 t = ((cfg0.win 2).blk t).view.read (Elt Ideal) (masked (V c main_arg1) (V c main_arg2)) := by
  show (cfg0.win 2).cut (grid0.coords t) ((dat0 V c).after 2 t) = _
  rw [after0_2]
  unfold out0_2
  rw [View.canon_unit_zero zero_offsets]
  simp only [View.ld_unit_zero (S := S256x4096) zero_offsets]
  obtain ⟨e0, e1, e2, e3⟩ := prep_index t
  funext j
  show k0_pay1 (F := Ideal) (iblk0 V c 0 t) (iblk0 V c 1 t) j
    = masked (V c main_arg1) (V c main_arg2) (((cfg0.win 2).blk t).view.emb j)
  refine prep_point (V c main_arg1) (V c main_arg2) (iblk0 V c 0 t) (iblk0 V c 1 t) j _ ?_ ?_
  · show V c main_arg1 (((cfg0.win 0).blk t).view.emb j) = V c main_arg1 (((cfg0.win 2).blk t).view.emb j)
    refine congrArg (V c main_arg1) (funext fun a => Fin.ext ?_)
    match a with
    | ⟨0, _⟩ => show win0_0.index t (0 : Fin 2) * 256 + 1 * (j 0).val = win0_2.index t (0 : Fin 2) * 256 + 1 * (j 0).val; omega
    | ⟨1, _⟩ => show win0_0.index t (1 : Fin 2) * 4096 + 1 * (j 1).val = win0_2.index t (1 : Fin 2) * 4096 + 1 * (j 1).val; omega
  · show V c main_arg2 (((cfg0.win 1).blk t).view.emb j) = V c main_arg2 (((cfg0.win 2).blk t).view.emb j)
    refine congrArg (V c main_arg2) (funext fun a => Fin.ext ?_)
    match a with
    | ⟨0, _⟩ => show win0_1.index t (0 : Fin 2) * 256 + 1 * (j 0).val = win0_2.index t (0 : Fin 2) * 256 + 1 * (j 0).val; omega
    | ⟨1, _⟩ => show win0_1.index t (1 : Fin 2) * 4096 + 1 * (j 1).val = win0_2.index t (1 : Fin 2) * 4096 + 1 * (j 1).val; omega

/-- An entry of the array is in point `t`'s block iff each coordinate is in the block's range on its axis. -/
theorem prep_mem_blk (t : Fin cfg0.N) (i : S4096x4096.Idx) :
    i ∈ ((cfg0.win 2).blk t).view.set ↔ ∀ a : Fin 2, win0_2.index t a * S256x4096.size a ≤ (i a).val ∧ (i a).val < win0_2.index t a * S256x4096.size a + S256x4096.size a := by
  show i ∈ ((View.whole main_v0).slice (win0_2.rect t)).set ↔ _
  rw [View.set_slice_whole, Rect.mem_set_unit]
  exact Iff.rfl

/-- Every entry is in the block of the point that holds its row: row `r` is in block `r / 256`. -/
theorem prep_cover (i : S4096x4096.Idx) :
    ∃ t : Fin cfg0.N, (cfg0.win 2).flush t = true ∧ i ∈ ((cfg0.win 2).blk t).view.set := by
  have hi0 : (i 0).val < 4096 := (i 0).isLt
  have hi1 : (i 1).val < 4096 := (i 1).isLt
  obtain ⟨t, ht⟩ := prep_onto ⟨(i 0).val / 256, by omega⟩
  have q0 : win0_2.index t (0 : Fin 2) = (i 0).val / 256 := congrFun ht 0
  have q1 : win0_2.index t (1 : Fin 2) = 0 := congrFun ht 1
  refine ⟨t, flush0_2 t, ?_⟩
  rw [prep_mem_blk]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 4096 ≤ (i 1).val ∧ (i 1).val < win0_2.index t (1 : Fin 2) * 4096 + 4096; omega

/-- After its last point the first kernel's output array is the masked weight. -/
theorem prep_final (c : Dev nD) : (dat0 V c).arrAt 2 cfg0.N = masked (V c main_arg1) (V c main_arg2) :=
  (dat0 V c).arrAt_eq_of_cover 2 (masked (V c main_arg1) (V c main_arg2)) (fun t _ => prep_flushed V c t) prep_cover

end Cert.KernelIdeal.Dense

end
-- ==== Proof.LibPlainMatmul.lean ====
/-
  A plain matrix product read at an index.

  For dimension numbers that contract the left operand's second axis with the right operand's first and have no
  batch axes, the matrix unit's product of `l : [M, K]` and `r : [K, N]` into a zero accumulator is, at `(p, q)`,
  the finite sum `Σ_k l[p, k] · r[k, q]` in the extended reals.  The four coordinate facts of the dimension numbers
  are hypotheses: they are decided, or read off the record, for a program's literal record.
-/
import Idealize.ShloMosaic.PureOps.Ideal.Laws
import Idealize.ShloMosaic.Lib.ValueIdx

noncomputable section

namespace Idealize.ShloMosaic.PlainMatmul

open Idealize.ShloMosaic Idealize.ShloMosaic.ValueIdx

/-- The sum over a one-axis contraction index is the sum over its one coordinate. -/
theorem contr_sum {M K N : Nat} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (l : (⟨2, ![M, K]⟩ : Shape).Idx → EReal) (r : (⟨2, ![K, N]⟩ : Shape).Idx → EReal) (p : Fin M) (q : Fin N) :
    (∑ k : d.contr.Idx, l (d.lhsIdx (ix2 p q) k) * r (d.rhsIdx (ix2 p q) k)) = ∑ k : Fin K, l (ix2 p k) * r (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

/-- The matrix unit's product into a zero accumulator, read at `(p, q)`. -/
theorem matmul_zero_apply {M K N : Nat} {φ₁ φ₂ : FTy} (d : DotDims ⟨2, ![M, K]⟩ ⟨2, ![K, N]⟩ ⟨2, ![M, N]⟩)
    (prec : Option ContractPrecision)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (l : FVec Ideal ⟨2, ![M, K]⟩ φ₁) (r : FVec Ideal ⟨2, ![K, N]⟩ φ₂) (p : Fin M) (q : Fin N) :
    matmul d prec l r (constant (F := Ideal) ⟨2, ![M, N]⟩ .f32 0x00000000#32) (ix2 p q)
      = ∑ k : Fin K, l (ix2 p k) * r (ix2 k q) := by
  exact (Ideal.matmul_constant_zero_apply d prec l r (ix2 p q)).trans (contr_sum d hr hs hl0 hl1 hr0 hr1 l r p q)

end Idealize.ShloMosaic.PlainMatmul

end
-- ==== Proof.DenseEntry.lean ====
/-
  One entry of the matrix-product body.

  The second kernel's stored value, as a pure function of the three blocks it loads — a row block `x` of the input
  (512 × 4096), a column block `wm` of the masked weight (4096 × 2048) and the matching piece `b` of the bias row
  (1 × 2048) — is, at the entry `(p, q)` of the 512 × 2048 output block,

      Σ_k x[p, k] · wm[k, q]  +  b[0, q]

  in the extended reals: the change of float format of `x` is the identity there, the two shape casts are casts to the
  same shape, the matrix unit's product into a zero accumulator is the plain finite sum, and the bias row is repeated
  over the 512 rows.
-/
import proofs.«135961_g67843303407970_cont_9to1c4b_90_21_alg».proof.Proof.Gen.KernelIdeal.Skeleton
import proofs.«135961_g67843303407970_cont_9to1c4b_90_21_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Dense

open Cert.KernelIdeal Cert.KernelIdeal.Gen Idealize.ShloMosaic Idealize.ShloMosaic.ValueIdx

/-- The contraction of the block product has one axis, of extent 4096. -/
theorem dot_contr_rank : dot_S512x4096_S4096x2048_S512x2048_1_0_0_1_n_n.contr.rank = 1 := rfl
theorem dot_contr_size : dot_S512x4096_S4096x2048_S512x2048_1_0_0_1_n_n.contr.size ⟨0, by decide⟩ = 4096 := rfl

/-- The left operand is read at the output's row and the contraction position. -/
theorem dot_lhs0 (i : S512x2048.Idx) (q : dot_S512x4096_S4096x2048_S512x2048_1_0_0_1_n_n.contr.Idx) :
    (dot_S512x4096_S4096x2048_S512x2048_1_0_0_1_n_n.lhsIdx i q 0).val = (i 0).val := by
  unfold DotDims.lhsIdx
  rw [dif_neg (show ¬(0 : Fin S512x4096.rank) ∈ dot_S512x4096_S4096x2048_S512x2048_1_0_0_1_n_n.lhsBatch by decide),
    dif_pos (show (0 : Fin S512x4096.rank) ∈ dot_S512x4096_S4096x2048_S512x2048_1_0_0_1_n_n.lhsNonContracting by decide)]
  rfl
theorem dot_lhs1 (i : S512x2048.Idx) (q : dot_S512x4096_S4096x2048_S512x2048_1_0_0_1_n_n.contr.Idx) :
    (dot_S512x4096_S4096x2048_S512x2048_1_0_0_1_n_n.lhsIdx i q 1).val = (q ⟨0, by decide⟩).val :=
  dot_S512x4096_S4096x2048_S512x2048_1_0_0_1_n_n.lhsIdx_val_of_single rfl i q
/-- The right operand is read at the contraction position and the output's column. -/
theorem dot_rhs0 (i : S512x2048.Idx) (q : dot_S512x4096_S4096x2048_S512x2048_1_0_0_1_n_n.contr.Idx) :
    (dot_S512x4096_S4096x2048_S512x2048_1_0_0_1_n_n.rhsIdx i q 0).val = (q ⟨0, by decide⟩).val :=
  dot_S512x4096_S4096x2048_S512x2048_1_0_0_1_n_n.rhsIdx_val_of_single rfl i q
theorem dot_rhs1 (i : S512x2048.Idx) (q : dot_S512x4096_S4096x2048_S512x2048_1_0_0_1_n_n.contr.Idx) :
    (dot_S512x4096_S4096x2048_S512x2048_1_0_0_1_n_n.rhsIdx i q 1).val = (i 1).val := by
  unfold DotDims.rhsIdx
  rw [dif_neg (show ¬(1 : Fin S4096x2048.rank) ∈ dot_S512x4096_S4096x2048_S512x2048_1_0_0_1_n_n.rhsBatch by decide),
    dif_pos (show (1 : Fin S4096x2048.rank) ∈ dot_S512x4096_S4096x2048_S512x2048_1_0_0_1_n_n.rhsNonContracting by decide)]
  rfl

/-- The stored value of the matrix-product body at the entry `(p, q)` of its block. -/
theorem dense_entry (x : Vec Ideal S512x4096 .f32) (wm : Vec Ideal S4096x2048 .bf16) (b : Vec Ideal S1x2048 .f32)
    (p : Fin 512) (q : Fin 2048) :
    k1_pay1 (F := Ideal) x wm b (ix2 p q) = (∑ k : Fin 4096, x (ix2 p k) * wm (ix2 k q)) + b (ix2 (0 : Fin 1) q) := by
  unfold k1_pay1
  show matmul dot_S512x4096_S4096x2048_S512x2048_1_0_0_1_n_n none (truncf .bf16 x bitsLt_bf16_f32)
        (shapeCast S4096x2048 wm shapeCasts_S4096x2048_S4096x2048) (constant (F := Ideal) S512x2048 .f32 0x00000000#32) (ix2 p q)
      + broadcastTo S512x2048 (shapeCast S1x2048 b shapeCasts_S1x2048_S1x2048) broadcasts_S1x2048_S512x2048 (ix2 p q) = _
  rw [shapeCast_self, shapeCast_self]
  refine congrArg₂ (· + ·) ?_ ?_
  · exact PlainMatmul.matmul_zero_apply dot_S512x4096_S4096x2048_S512x2048_1_0_0_1_n_n none dot_contr_rank dot_contr_size
      dot_lhs0 dot_lhs1 dot_rhs0 dot_rhs1 (truncf .bf16 x bitsLt_bf16_f32) wm p q
  · exact broadcastTo_1b_ab_apply b broadcasts_S1x2048_S512x2048 p q

end Cert.KernelIdeal.Dense

end
-- ==== Proof.DenseBlocks.lean ====
/-
  The second kernel leaves the affine map of its three arrays.

  The second kernel runs over a 2 × 16 grid: the point with column-block `s` and row-block `r` loads rows
  `512 r … 512 r + 511` of the input (all 4096 columns), columns `2048 s … 2048 s + 2047` of the masked weight (all
  4096 rows) and the same columns of the bias row, and stores block `(r, s)` of the output.  By the entry formula of
  the body, the entry `(p, q)` of that block is

      Σ_k X[512 r + p, k] · Wm[k, 2048 s + q]  +  B[0, 2048 s + q],

  which is the entry `(512 r + p, 2048 s + q)` of the affine map of the three whole arrays.  The 32 blocks cover the
  output, so after the last point the output array is that map of the arrays as the kernel found them.
-/
import proofs.«135961_g67843303407970_cont_9to1c4b_90_21_alg».proof.Proof.Gen.KernelIdeal.Frame
import proofs.«135961_g67843303407970_cont_9to1c4b_90_21_alg».proof.Proof.Spec
import proofs.«135961_g67843303407970_cont_9to1c4b_90_21_alg».proof.Proof.DenseEntry
import Idealize.ShloMosaic.Lib.Pipeline.Value
import Idealize.ShloMosaic.Lib.ValueIdx

noncomputable section

namespace Cert.KernelIdeal.Dense

open Cert.KernelIdeal Cert.KernelIdeal.Gen Idealize.ShloMosaic Idealize.ShloMosaic.TcCoe Idealize.SL.Sem
open Idealize.ShloMosaic.ValueIdx
open Idealize.ShloMosaic.Pipeline (Dat)
open Cert.DenseSpec (affine affine_ix2)

variable (V : (c : Dev nD) → (b : Ref sig .tc) → Buf (Elt Ideal) ((c : Thread nD τ).loc b))

theorem zero_offsets' : (![0, 0] : Fin 2 → Nat) = fun _ => 0 := funext fun a => by fin_cases a <;> rfl

/-- Where each input block sits relative to the output block: the input shares its block row, the weight and the
    bias share its block column, and the other block coordinate of each is 0. -/
theorem dense_index : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = win1_3.index t (1 : Fin 2)
    ∧ win1_2.index t (0 : Fin 2) = 0
    ∧ win1_2.index t (1 : Fin 2) = win1_3.index t (1 : Fin 2)
    ∧ win1_3.index t (0 : Fin 2) < 16
    ∧ win1_3.index t (1 : Fin 2) < 2 :=
  (by decide +kernel : ∀ t : Fin grid1.N, _)

/-- Every block of the output is some point's. -/
theorem dense_onto : ∀ (q0 : Fin 16) (q1 : Fin 2), ∃ t : Fin cfg1.N, win1_3.index t = ![q0.val, q1.val] :=
  (by decide +kernel : ∀ (q0 : Fin 16) (q1 : Fin 2), ∃ t : Fin grid1.N, win1_3.index t = ![q0.val, q1.val])

/-- One entry of the body's block is the affine map's entry, when the three loaded blocks are the stated rows and
    columns of three whole arrays. -/
theorem dense_point (X : S8192x4096.Idx → EReal) (Wm : S4096x4096.Idx → EReal) (B : S1x4096.Idx → EReal)
    (x : Vec Ideal S512x4096 .f32) (wm : Vec Ideal S4096x2048 .bf16) (b : Vec Ideal S1x2048 .f32)
    (r s : Nat) (hr : r < 16) (hs : s < 2)
    (hx : ∀ (p : Fin 512) (k : Fin 4096), x (ix2 p k) = X (ix2 (⟨r * 512 + p.val, by omega⟩ : Fin 8192) k))
    (hw : ∀ (k : Fin 4096) (q : Fin 2048), wm (ix2 k q) = Wm (ix2 k (⟨s * 2048 + q.val, by omega⟩ : Fin 4096)))
    (hb : ∀ q : Fin 2048, b (ix2 (0 : Fin 1) q) = B (ix2 (0 : Fin 1) (⟨s * 2048 + q.val, by omega⟩ : Fin 4096)))
    (p : Fin 512) (q : Fin 2048) :
    k1_pay1 (F := Ideal) x wm b (ix2 p q)
      = affine X Wm B (ix2 (⟨r * 512 + p.val, by omega⟩ : Fin 8192) (⟨s * 2048 + q.val, by omega⟩ : Fin 4096)) := by
  rw [dense_entry, affine_ix2, hb q]
  refine congrArg (· + _) (Finset.sum_congr rfl fun k _ => ?_)
  rw [hx p k, hw k q]

/-- What point `t` writes back is block `t` of the affine map of the three arrays as the kernel finds them. -/
theorem dense_flushed (c : Dev nD) (t : Fin cfg1.N) :
    (dat1 V c).flushed 3 t
      = ((cfg1.win 3).blk t).view.read (Elt Ideal) (affine (V c main_arg0) (V c main_v0) (V c main_v1)) := by
  show (cfg1.win 3).cut (grid1.coords t) ((dat1 V c).after 3 t) = _
  rw [after1_3]
  unfold out1_3
  rw [View.canon_unit_zero zero_offsets']
  simp only [View.ld_unit_zero (S := S512x4096) zero_offsets', View.ld_unit_zero (S := S4096x2048) zero_offsets',
    View.ld_unit_zero (S := S1x2048) zero_offsets']
  obtain ⟨e0, e1, e2, e3, e4, e5, e6, e7⟩ := dense_index t
  funext j
  obtain ⟨p, q, rfl⟩ : ∃ (p : Fin 512) (q : Fin 2048), j = ix2 p q := ⟨j 0, j 1, eq_ix2 j⟩
  show k1_pay1 (F := Ideal) (iblk1 V c 0 t) (iblk1 V c 1 t) (iblk1 V c 2 t) (ix2 p q)
    = affine (V c main_arg0) (V c main_v0) (V c main_v1) (((cfg1.win 3).blk t).view.emb (ix2 p q))
  refine (dense_point (V c main_arg0) (V c main_v0) (V c main_v1) (iblk1 V c 0 t) (iblk1 V c 1 t) (iblk1 V c 2 t)
    (win1_3.index t (0 : Fin 2)) (win1_3.index t (1 : Fin 2)) e6 e7 ?_ ?_ ?_ p q).trans ?_
  · intro p k
    show V c main_arg0 (((cfg1.win 0).blk t).view.emb (ix2 p k)) = _
    refine congrArg (V c main_arg0) (funext fun a => Fin.ext ?_)
    match a with
    | ⟨0, _⟩ => show win1_0.index t (0 : Fin 2) * 512 + 1 * p.val = win1_3.index t (0 : Fin 2) * 512 + p.val; omega
    | ⟨1, _⟩ => show win1_0.index t (1 : Fin 2) * 4096 + 1 * k.val = k.val; omega
  · intro k q
    show V c main_v0 (((cfg1.win 1).blk t).view.emb (ix2 k q)) = _
    refine congrArg (V c main_v0) (funext fun a => Fin.ext ?_)
    match a with
    | ⟨0, _⟩ => show win1_1.index t (0 : Fin 2) * 4096 + 1 * k.val = k.val; omega
    | ⟨1, _⟩ => show win1_1.index t (1 : Fin 2) * 2048 + 1 * q.val = win1_3.index t (1 : Fin 2) * 2048 + q.val; omega
  · intro q
    show V c main_v1 (((cfg1.win 2).blk t).view.emb (ix2 (0 : Fin 1) q)) = _
    refine congrArg (V c main_v1) (funext fun a => Fin.ext ?_)
    match a with
    | ⟨0, _⟩ => show win1_2.index t (0 : Fin 2) * 1 + 1 * 0 = 0; omega
    | ⟨1, _⟩ => show win1_2.index t (1 : Fin 2) * 2048 + 1 * q.val = win1_3.index t (1 : Fin 2) * 2048 + q.val; omega
  · refine congrArg (affine (V c main_arg0) (V c main_v0) (V c main_v1)) (funext fun a => Fin.ext ?_)
    match a with
    | ⟨0, _⟩ => show win1_3.index t (0 : Fin 2) * 512 + p.val = win1_3.index t (0 : Fin 2) * 512 + 1 * p.val; omega
    | ⟨1, _⟩ => show win1_3.index t (1 : Fin 2) * 2048 + q.val = win1_3.index t (1 : Fin 2) * 2048 + 1 * q.val; omega

/-- An entry of the array is in point `t`'s block iff each coordinate is in the block's range on its axis. -/
theorem dense_mem_blk (t : Fin cfg1.N) (i : S8192x4096.Idx) :
    i ∈ ((cfg1.win 3).blk t).view.set ↔ ∀ a : Fin 2, win1_3.index t a * S512x2048.size a ≤ (i a).val ∧ (i a).val < win1_3.index t a * S512x2048.size a + S512x2048.size a := by
  show i ∈ ((View.whole main_v2).slice (win1_3.rect t)).set ↔ _
  rw [View.set_slice_whole, Rect.mem_set_unit]
  exact Iff.rfl

/-- Every entry is in the block of the point that holds its row block and its column block:
    entry `(r, j)` is in block `(r / 512, j / 2048)`. -/
theorem dense_cover (i : S8192x4096.Idx) :
    ∃ t : Fin cfg1.N, (cfg1.win 3).flush t = true ∧ i ∈ ((cfg1.win 3).blk t).view.set := by
  have hi0 : (i 0).val < 8192 := (i 0).isLt
  have hi1 : (i 1).val < 4096 := (i 1).isLt
  obtain ⟨t, ht⟩ := dense_onto ⟨(i 0).val / 512, by omega⟩ ⟨(i 1).val / 2048, by omega⟩
  have q0 : win1_3.index t (0 : Fin 2) = (i 0).val / 512 := congrFun ht 0
  have q1 : win1_3.index t (1 : Fin 2) = (i 1).val / 2048 := congrFun ht 1
  refine ⟨t, flush1_3 t, ?_⟩
  rw [dense_mem_blk]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 2048 ≤ (i 1).val ∧ (i 1).val < win1_3.index t (1 : Fin 2) * 2048 + 2048; omega

/-- After its last point the second kernel's output array is the affine map of its three arrays. -/
theorem dense_final (c : Dev nD) :
    (dat1 V c).arrAt 3 cfg1.N = affine (V c main_arg0) (V c main_v0) (V c main_v1) :=
  (dat1 V c).arrAt_eq_of_cover 3 (affine (V c main_arg0) (V c main_v0) (V c main_v1)) (fun t _ => dense_flushed V c t) dense_cover

end Cert.KernelIdeal.Dense

end
-- ==== Proof.DenseRun.lean ====
/-
  The whole run of the kernel's program, with its result named.

  The program launches the first kernel (the masked weight), reshapes the bias to a one-row matrix on the host, and
  launches the second kernel (input times masked weight plus bias row).  The contents of every buffer at the four
  boundaries of this run are a fold from the launch memory; reading that fold:

  * the second kernel finds the input as launched, the masked weight where the first kernel left it, and the bias
    as a one-row matrix;
  * so the array it leaves — the program's result — is the affine map of those three, which is the layer of the
    four launched arrays.

  The run itself is the program's three segments taken through the several-regions launch theorem, with the last
  thread state read at the result buffer as well as at the four arguments.
-/
import proofs.«135961_g67843303407970_cont_9to1c4b_90_21_alg».proof.Proof.Gen.KernelIdeal.Frame
import proofs.«135961_g67843303407970_cont_9to1c4b_90_21_alg».proof.Proof.Spec
import proofs.«135961_g67843303407970_cont_9to1c4b_90_21_alg».proof.Proof.MaskedWeight
import proofs.«135961_g67843303407970_cont_9to1c4b_90_21_alg».proof.Proof.DenseBlocks
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Dense

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.DenseSpec (layer affine masked biasRow)

local notation "𝕄" => MT nD τ sig Unit (Elt Ideal) ℕ (UR sig nD τ) ℕ

variable (m : (ℓ : Loc nD τ sig) → Buf (Elt Ideal) ℓ) (ρ : Dev nD → PrngReg)

/-! ## What the second kernel finds -/

/-- The host reshape between the two kernels writes only the bias row. -/
theorem reshape_keeps (c : Dev nD) (b : Ref sig .tc) (hb : b ≠ main_v1) :
    W2 m ρ c (Proc.devRef .tc b) = W1 m ρ c (Proc.devRef .tc b) := by
  show StableHlo.after hostOps1 (W1 m ρ c) (Proc.devRef .tc b) = _
  simp only [hostOps1, StableHlo.after_cons, StableHlo.after_nil]
  exact StableHlo.reshape_result_ne _ _ _ _ _ _ _ hb

/-- The second kernel finds the input as launched. -/
theorem entry_input (c : Dev nD) : V2 m ρ c main_arg0 = m ((c : Thread nD τ).loc main_arg0) :=
  (reshape_keeps m ρ c main_arg0 (by decide)).trans (W1_of_ne m ρ c main_arg0 (by decide))

/-- The second kernel finds the masked weight where the first kernel left it. -/
theorem entry_weight (c : Dev nD) :
    V2 m ρ c main_v0 = masked (m ((c : Thread nD τ).loc main_arg1)) (m ((c : Thread nD τ).loc main_arg2)) :=
  (reshape_keeps m ρ c main_v0 (by decide)).trans ((W1_arr m ρ c 2).trans (prep_final (V0 m ρ) c))

/-- The second kernel finds the bias as a one-row matrix. -/
theorem entry_bias (c : Dev nD) : V2 m ρ c main_v1 = biasRow (m ((c : Thread nD τ).loc main_arg3)) := by
  show StableHlo.after hostOps1 (W1 m ρ c) (Proc.devRef .tc main_v1) = _
  simp only [hostOps1, StableHlo.after_cons, StableHlo.after_nil]
  rw [StableHlo.reshape_result, W1_of_ne m ρ c main_arg3 (by decide)]
  funext i
  obtain ⟨u, j, rfl⟩ : ∃ (u : Fin 1) (j : Fin 4096), i = ix2 u j := ⟨i 0, i 1, eq_ix2 i⟩
  exact shapeCast_a_1a_apply (m ((c : Thread nD τ).loc main_arg3)) shapeCasts_S4096_S1x4096 u j

/-! ## The result -/

/-- The program's result buffer at the end of the fold is the layer of the four launched arrays. -/
theorem result_eq (c : Dev nD) :
    W3 m ρ c (Proc.devRef .tc main_v2)
      = layer (m ((c : Thread nD τ).loc main_arg0)) (m ((c : Thread nD τ).loc main_arg1))
          (m ((c : Thread nD τ).loc main_arg2)) (m ((c : Thread nD τ).loc main_arg3)) := by
  refine (W3_arr m ρ c 3).trans ((dense_final (V2 m ρ) c).trans ?_)
  rw [entry_input, entry_weight, entry_bias]
  rfl

/-! ## The run -/

set_option backward.isDefEq.respectTransparency.types false in
/-- Every weakly fair execution of the program from a memory with zero counters terminates, nothing faulting, with
    the result buffer at the end of the fold and the four arguments as launched. -/
theorem run_fold : θ_run defs (onTc (τ := τ) (main (F := Ideal))) ⟨m, fun _ => 0, ρ⟩ (fun r => ∀ c : Dev nD,
      r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v2 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

/-- The run with the result read: the result buffer ends at the layer of the four launched arrays. -/
theorem run : θ_run defs (onTc (τ := τ) (main (F := Ideal))) ⟨m, fun _ => 0, ρ⟩ (fun r => ∀ c : Dev nD,
      r.2.mem ((c.tc : Thread nD τ).loc main_v2)
        = layer (m ((c : Thread nD τ).loc main_arg0)) (m ((c : Thread nD τ).loc main_arg1))
            (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_eq m ρ c), (h c).2⟩) (run_fold m ρ)

end Cert.KernelIdeal.Dense

end
-- ==== Proof.RefLayer.lean ====
/-
  The reference computes the layer.

  The reference multiplies the weight by the mask entrywise, takes the matrix product of the input with the result,
  and adds the bias broadcast first to one row and then over all rows.  Read at the entry `(r, j)` this is
  `Σ_k x[r, k] · (w[k, j] · mk[k, j]) + b[j]`: the layer of the specification.
-/
import proofs.«135961_g67843303407970_cont_9to1c4b_90_21_alg».proof.Proof.Gen.ReferenceIdeal.Read
import proofs.«135961_g67843303407970_cont_9to1c4b_90_21_alg».proof.Proof.Spec
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx
open Cert.DenseSpec (layer affine affine_ix2 masked biasRow)

/-- The reference's last stage, as a function of the four arguments, is the layer. -/
theorem ref_layer (x0 : (⟨S8192x4096, .f32⟩ : BufTy).Contents (Elt Ideal)) (x1 x2 : (⟨S4096x4096, .f32⟩ : BufTy).Contents (Elt Ideal))
    (x3 : (⟨S4096, .f32⟩ : BufTy).Contents (Elt Ideal)) :
    val_main_v4 (F := Ideal) x0 x1 x2 x3 = layer x0 x1 x2 x3 := by
  funext i
  obtain ⟨r, j, rfl⟩ : ∃ (r : Fin 8192) (j : Fin 4096), i = ix2 r j := ⟨i 0, i 1, eq_ix2 i⟩
  have el : ∀ k : Fin 4096, lidx_main_v1 (ix2 r j) k = ix2 r k := fun k => funext fun a => by
    match a with
    | ⟨0, _⟩ => rfl
    | ⟨1, _⟩ => rfl
  have er : ∀ k : Fin 4096, ridx_main_v1 (ix2 r j) k = ix2 k j := fun k => funext fun a => by
    match a with
    | ⟨0, _⟩ => rfl
    | ⟨1, _⟩ => rfl
  rw [val_main_v4_apply, val_main_v1_apply, val_main_v3_apply, val_main_v2_apply]
  unfold layer
  rw [affine_ix2]
  show (∑ k : Fin 4096, x0 (lidx_main_v1 (ix2 r j) k) * val_main_v0 (F := Ideal) x1 x2 (ridx_main_v1 (ix2 r j) k))
      + x3 (idx_main_v2 (idx_main_v3 (ix2 r j))) = _
  refine congrArg₂ (· + ·) (Finset.sum_congr rfl fun k _ => ?_) ?_
  · rw [el k, er k]; rfl
  · show x3 _ = x3 _
    refine congrArg x3 (funext fun a => ?_)
    match a with
    | ⟨0, _⟩ => rfl

end Cert.ReferenceIdeal.RefValue

end
-- ==== Proof.lean ====
/-
  The kernel computes the masked dense layer `x · (w ∘ mask) + b` in two steps and the reference computes it in one
  expression; over the extended reals the two are the same function of the four arrays.

  The kernel's program: a first kernel stores the entrywise product of the weight and the mask (rounded to a narrower
  float format, which is the identity on extended reals), 256 rows at a time; the host lays the bias out as a one-row
  matrix; a second kernel, over a 2 × 16 grid of 512 × 2048 output blocks, multiplies 512 rows of the input by 2048
  columns of the masked weight with the full contraction length 4096 in one matrix product, and adds the matching
  piece of the bias row.  Block by block this is `Σ_k x[r, k] · (w[k, j] · mk[k, j]) + b[j]` at every entry `(r, j)`
  (Proof/DenseEntry.lean: one entry of a block; Proof/MaskedWeight.lean and Proof/DenseBlocks.lean: the blocks of each
  kernel cover its output array, so the array is one function of what the kernel found; Proof/DenseRun.lean: the run
  of the whole program, with what the second kernel finds read back to the launched arrays).

  The reference's `dot_general` of the input with the product `w ∘ mask`, plus the bias broadcast over the rows, read
  at an entry, is the same sum (Proof/RefLayer.lean).  No law beyond reading both sides at an index is needed: the
  two sides are the same expression entry by entry, so nothing is asked of the inputs' finiteness.

  The three frames are the generated ones (the reference's is its generated run with the result dropped), and the
  idealization rewrote no operation, so there is nothing to preserve.
-/
import proofs.«135961_g67843303407970_cont_9to1c4b_90_21_alg».proof.Defs
import proofs.«135961_g67843303407970_cont_9to1c4b_90_21_alg».proof.Proof.Gen.Kernel
import proofs.«135961_g67843303407970_cont_9to1c4b_90_21_alg».proof.Proof.Gen.Kernel.Skeleton
import proofs.«135961_g67843303407970_cont_9to1c4b_90_21_alg».proof.Proof.Gen.Kernel.Launch
import proofs.«135961_g67843303407970_cont_9to1c4b_90_21_alg».proof.Proof.Gen.Kernel.Points
import proofs.«135961_g67843303407970_cont_9to1c4b_90_21_alg».proof.Proof.Gen.Kernel.Frame
import proofs.«135961_g67843303407970_cont_9to1c4b_90_21_alg».proof.Proof.Gen.KernelIdeal
import proofs.«135961_g67843303407970_cont_9to1c4b_90_21_alg».proof.Proof.Gen.KernelIdeal.Skeleton
import proofs.«135961_g67843303407970_cont_9to1c4b_90_21_alg».proof.Proof.Gen.KernelIdeal.Launch
import proofs.«135961_g67843303407970_cont_9to1c4b_90_21_alg».proof.Proof.Gen.KernelIdeal.Points
import proofs.«135961_g67843303407970_cont_9to1c4b_90_21_alg».proof.Proof.Gen.KernelIdeal.Frame
import proofs.«135961_g67843303407970_cont_9to1c4b_90_21_alg».proof.Proof.Gen.ReferenceIdeal
import proofs.«135961_g67843303407970_cont_9to1c4b_90_21_alg».proof.Proof.Gen.ReferenceIdeal.Run
import proofs.«135961_g67843303407970_cont_9to1c4b_90_21_alg».proof.Proof.Gen.ReferenceIdeal.Read
import proofs.«135961_g67843303407970_cont_9to1c4b_90_21_alg».proof.Proof.Gen.Pre_finite_inputs
import proofs.«135961_g67843303407970_cont_9to1c4b_90_21_alg».proof.Proof.Spec
import proofs.«135961_g67843303407970_cont_9to1c4b_90_21_alg».proof.Proof.DenseRun
import proofs.«135961_g67843303407970_cont_9to1c4b_90_21_alg».proof.Proof.RefLayer
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- The idealized kernel runs and keeps its arguments. -/
theorem frame_kernel_ideal : Cert.frame_KernelIdeal := fun m ρ _ => Cert.KernelIdeal.Gen.frame m ρ

/-- The idealized reference runs and keeps its arguments: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the layer of the four launched arrays in their result. -/
theorem algebraic : Cert.algebraic_KernelIdeal_ReferenceIdeal := by
  intro m ρ m' ρ' _ hagree
  refine ⟨fun c => Cert.DenseSpec.layer (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3)),
    Cert.KernelIdeal.Dense.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.ref_layer,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
